-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1679411 : Shape := ⟨1, ![1679411]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1679411 : S_.BroadcastsInDim S1679411 (![] : Fin 0 → Fin S1679411.rank)
  reducesTo_S1679411_S_d0 : S1679411.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S1679411 .f32) (main_arg2 : IVec S1679411 32) (main_arg3 : IVec S1679411 32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1679411 .f32 := Host.absf main_arg1
  let main_cst_0 : FVec F S_ .f32 := constant S_ .f32 0x7F800000#32
  let main_v5 : FVec F S1679411 .f32 := broadcastInDim S1679411 ![] bcast_S_S1679411 main_cst_0
  let main_v6 : IVec S1679411 1 := cmpf .olt main_v4 main_v5
  let main_c_1 : IVec S_ 1 := constantI S_ 1 1#1
  let main_v7 : IVec S_ 1 := (fun x v => Host.reduce IntOp.andi x v reducesTo_S1679411_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S1679411 : Shape := ⟨1, ![1679411]⟩
abbrev S4096 : Shape := ⟨1, ![4096]⟩
abbrev S_ : Shape := ⟨0, ![]⟩
abbrev S4096x4096 : Shape := ⟨2, ![4096, 4096]⟩
abbrev S1679411x1 : Shape := ⟨2, ![1679411, 1]⟩
abbrev S1679411x2 : Shape := ⟨2, ![1679411, 2]⟩
abbrev S1x4096 : Shape := ⟨2, ![1, 4096]⟩
abbrev S512x1024 : Shape := ⟨2, ![512, 1024]⟩
abbrev S2048x1024 : Shape := ⟨2, ![2048, 1024]⟩
abbrev S1x2048 : Shape := ⟨2, ![1, 2048]⟩
abbrev S512x2048 : Shape := ⟨2, ![512, 2048]⟩

abbrev nBuf : Space → Nat
  | .hbm => 28
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1679411, .f32⟩
  | .hbm, ⟨2, _⟩ => ⟨S1679411, .i32⟩
  | .hbm, ⟨3, _⟩ => ⟨S1679411, .i32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1679411, .i32⟩
  | .hbm, ⟨9, _⟩ => ⟨S1679411, .i1⟩
  | .hbm, ⟨10, _⟩ => ⟨S_, .i32⟩
  | .hbm, ⟨11, _⟩ => ⟨S1679411, .i32⟩
  | .hbm, ⟨12, _⟩ => ⟨S1679411, .i32⟩
  | .hbm, ⟨13, _⟩ => ⟨S1679411, .i32⟩
  | .hbm, ⟨14, _⟩ => ⟨S_, .i32⟩
  | .hbm, ⟨15, _⟩ => ⟨S1679411, .i32⟩
  | .hbm, ⟨16, _⟩ => ⟨S1679411, .i1⟩
  | .hbm, ⟨17, _⟩ => ⟨S_, .i32⟩
  | .hbm, ⟨18, _⟩ => ⟨S1679411, .i32⟩
  | .hbm, ⟨19, _⟩ => ⟨S1679411, .i32⟩
  | .hbm, ⟨20, _⟩ => ⟨S1679411, .i32⟩
  | .hbm, ⟨21, _⟩ => ⟨S1679411x1, .i32⟩
  | .hbm, ⟨22, _⟩ => ⟨S1679411x1, .i32⟩
  | .hbm, ⟨23, _⟩ => ⟨S1679411x2, .i32⟩
  | .hbm, ⟨24, _⟩ => ⟨S4096x4096, .f32⟩
  | .hbm, ⟨25, _⟩ => ⟨S4096x4096, .bf16⟩
  | .hbm, ⟨26, _⟩ => ⟨S1x4096, .f32⟩
  | .hbm, ⟨27, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S1679411 : S_.BroadcastsInDim S1679411 (![] : Fin 0 → Fin S1679411.rank)
  bcast_S1679411_S1679411x1_0 : S1679411.BroadcastsInDim S1679411x1 (![0] : Fin 1 → Fin S1679411x1.rank)
  concatenates_S1679411x1_S1679411x1_S1679411x2_d1 : Shape.Concatenates [S1679411x1, S1679411x1] S1679411x2 1
  bitsLt_bf16_f32 : FTy.bits .bf16 < FTy.bits .f32
  shapeCasts_S4096_S1x4096 : S4096.ShapeCasts S1x4096
  inb_S512x2048_S512x2048_0_0 : ∀ a, (![0, 0] : Fin 2 → Nat) a + S512x2048.size a ≤ S512x2048.size a
  h_S512x2048 : 0 < S512x2048.numel
  inb_S512x1024_S512x1024_0_0 : ∀ a, (![0, 0] : Fin 2 → Nat) a + S512x1024.size a ≤ S512x1024.size a
  h_S512x1024 : 0 < S512x1024.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  scatter_S4096x4096_S1679411x2_S1679411_n_01_01_1_wf : ScatterDims.WF S4096x4096 S1679411x2 S1679411 [] [0, 1] [0, 1] 1
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x4096.size a
  hwx0_3 : ∀ i : grid0.Coords, EltTy.bits .f32 = 32 ∨ (Rect.block (s := S8192x4096) S512x2048.size (cc0_transform_3 i) (hinb0_3 i)).WholeWords (EltTy.packing .f32)

variable [Facts₀]

def scatter_S4096x4096_S1679411x2_S1679411_n_01_01_1 : ScatterDims S4096x4096 S1679411x2 S1679411 where
  updateWindowDims := []
  insertedWindowDims := [0, 1]
  scatterDimsToOperandDims := [0, 1]
  indexVectorDim := 1
  wf := scatter_S4096x4096_S1679411x2_S1679411_n_01_01_1_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1679411 : Shape := ⟨1, ![1679411]⟩
abbrev S4096 : Shape := ⟨1, ![4096]⟩
abbrev S_ : Shape := ⟨0, ![]⟩
abbrev S4096x4096 : Shape := ⟨2, ![4096, 4096]⟩
abbrev S1679411x1 : Shape := ⟨2, ![1679411, 1]⟩
abbrev S1679411x2 : Shape := ⟨2, ![1679411, 2]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1679411, .f32⟩
  | .hbm, ⟨2, _⟩ => ⟨S1679411, .i32⟩
  | .hbm, ⟨3, _⟩ => ⟨S1679411, .i32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1679411, .i32⟩
  | .hbm, ⟨9, _⟩ => ⟨S1679411, .i1⟩
  | .hbm, ⟨10, _⟩ => ⟨S_, .i32⟩
  | .hbm, ⟨11, _⟩ => ⟨S1679411, .i32⟩
  | .hbm, ⟨12, _⟩ => ⟨S1679411, .i32⟩
  | .hbm, ⟨13, _⟩ => ⟨S1679411, .i32⟩
  | .hbm, ⟨14, _⟩ => ⟨S_, .i32⟩
  | .hbm, ⟨15, _⟩ => ⟨S1679411, .i32⟩
  | .hbm, ⟨16, _⟩ => ⟨S1679411, .i1⟩
  | .hbm, ⟨17, _⟩ => ⟨S_, .i32⟩
  | .hbm, ⟨18, _⟩ => ⟨S1679411, .i32⟩
  | .hbm, ⟨19, _⟩ => ⟨S1679411, .i32⟩
  | .hbm, ⟨20, _⟩ => ⟨S1679411, .i32⟩
  | .hbm, ⟨21, _⟩ => ⟨S1679411x1, .i32⟩
  | .hbm, ⟨22, _⟩ => ⟨S1679411x1, .i32⟩
  | .hbm, ⟨23, _⟩ => ⟨S1679411x2, .i32⟩
  | .hbm, ⟨24, _⟩ => ⟨S4096x4096, .f32⟩
  | .hbm, ⟨25, _⟩ => ⟨S4096x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1679411 : S_.BroadcastsInDim S1679411 (![] : Fin 0 → Fin S1679411.rank)
  bcast_S1679411_S1679411x1_0 : S1679411.BroadcastsInDim S1679411x1 (![0] : Fin 1 → Fin S1679411x1.rank)
  concatenates_S1679411x1_S1679411x1_S1679411x2_d1 : Shape.Concatenates [S1679411x1, S1679411x1] S1679411x2 1
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S4096x4096_S1679411x2_S1679411_n_01_01_1_wf : ScatterDims.WF S4096x4096 S1679411x2 S1679411 [] [0, 1] [0, 1] 1
  dot_S8192x4096_S4096x4096_S8192x4096_1_0_0_1_n_n_wf : DotDims.WF S8192x4096 S4096x4096 S8192x4096 [1] [0] [0] [1] [] []

variable [Facts₀]

def scatter_S4096x4096_S1679411x2_S1679411_n_01_01_1 : ScatterDims S4096x4096 S1679411x2 S1679411 where
  updateWindowDims := []
  insertedWindowDims := [0, 1]
  scatterDimsToOperandDims := [0, 1]
  indexVectorDim := 1
  wf := scatter_S4096x4096_S1679411x2_S1679411_n_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.Spec.lean ====
/-
  The sparse linear layer as one function of its arrays. With X the 8192 × 4096 input, W the 4096 × 4096 dense
  weight matrix (row = output channel, column = input channel) and B the 4096 biases,

      lin X W B (r, c) = (∑ k < 4096, X (r, k) · W (c, k)) + B c          on the extended reals.

  The second half of the file is the one algebraic fact the tiled evaluation needs: the contraction over the 4096
  input channels is the sum of the four contractions over the consecutive chunks of 1024 channels, taken in
  order from a zero start, with the bias added last. Only commutativity and associativity of addition enter,
  so nothing is asked of the entries (they may be infinite).
-/
import Idealize.ShloMosaic.PureOps.Ideal
import Idealize.ShloMosaic.Lib.ValueIdx
import proofs.«105524_j6365141533108_2_alg».proof.Proof.LibBlockSums

noncomputable section

namespace SparseLinear

open Idealize.ShloMosaic Idealize.ShloMosaic.ValueIdx

/-- Input channel `s · 1024 + kk`: channel `kk` of chunk `s`. -/
def chan (s : Fin 4) (kk : Fin 1024) : Fin 4096 := ⟨s.val * 1024 + kk.val, by have := s.isLt; have := kk.isLt; omega⟩

theorem chan_val (s : Fin 4) (kk : Fin 1024) : (chan s kk).val = s.val * 1024 + kk.val := rfl

/-- `y = x · Wᵀ + b`, entry by entry. -/
def lin (X : (⟨2, ![8192, 4096]⟩ : Shape).Idx → EReal) (W : (⟨2, ![4096, 4096]⟩ : Shape).Idx → EReal)
    (B : (⟨1, ![4096]⟩ : Shape).Idx → EReal) : (⟨2, ![8192, 4096]⟩ : Shape).Idx → EReal :=
  fun i => (∑ k : Fin 4096, X (ix2 (i 0) k) * W (ix2 (i 1) k)) + B (ix1 (i 1))

/-- The contraction, chunk by chunk: a zero start, the four chunk contractions added in order, then the bias. -/
theorem lin_chunks (X : (⟨2, ![8192, 4096]⟩ : Shape).Idx → EReal) (W : (⟨2, ![4096, 4096]⟩ : Shape).Idx → EReal)
    (B : (⟨1, ![4096]⟩ : Shape).Idx → EReal) (r : Fin 8192) (c : Fin 4096) :
    ((((0 + ∑ kk : Fin 1024, X (ix2 r (chan 0 kk)) * W (ix2 c (chan 0 kk)))
        + ∑ kk : Fin 1024, X (ix2 r (chan 1 kk)) * W (ix2 c (chan 1 kk)))
        + ∑ kk : Fin 1024, X (ix2 r (chan 2 kk)) * W (ix2 c (chan 2 kk)))
        + ∑ kk : Fin 1024, X (ix2 r (chan 3 kk)) * W (ix2 c (chan 3 kk)))
      + B (ix1 c) = lin X W B (ix2 r c) := by
  unfold lin
  rw [BlockSums.sum_blocks (m := 4) (n := 1024) (by norm_num) chan chan_val
    (fun k : Fin 4096 => X (ix2 r k) * W (ix2 c k)), Fin.sum_univ_four, zero_add]

end SparseLinear

end
-- ==== Proof.Payload.lean ====
/-
  What the kernel body computes on one tile, entry by entry, on the extended reals.

  The body holds a 512 × 2048 tile of the output. It is handed a 512 × 1024 tile `x` of the input, a 2048 × 1024
  tile `w` of the weight matrix (rows = output channels) and a 1 × 2048 tile `b` of biases, and
    * starts the output tile at zero,
    * adds to entry (p, q) of the tile the contraction ∑ kk < 1024, x (p, kk) · w (q, kk) — the product of the input
      tile with the TRANSPOSE of the weight tile; the change of number format of `x` before the product is the
      identity on the extended reals —,
    * at the last chunk adds b (0, q) to entry (p, q).
-/
import proofs.«105524_j6365141533108_2_alg».proof.Proof.Gen.KernelIdeal.Skeleton
import Idealize.ShloMosaic.PureOps.Ideal.Laws
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- The tile starts at zero. -/
theorem start_apply (y : S512x2048.Idx) : k0_pay1 (F := Ideal) y = 0 := by
  show Ideal.ofBits .f32 0x00000000#32 = 0
  exact Ideal.ofBits_zero_f32

/-! The product's operand indices: at output entry (p, q) and contraction position k the left operand is read at
    (p, k) and the right operand at (q, k) — both operands are contracted along their second axis. -/

theorem lhs_row (j : S512x2048.Idx) (k : dot_S512x1024_S2048x1024_S512x2048_1_1_0_0_n_n.contr.Idx) :
    (dot_S512x1024_S2048x1024_S512x2048_1_1_0_0_n_n.lhsIdx j k 0).val = (j 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl

theorem lhs_col (j : S512x2048.Idx) (k : dot_S512x1024_S2048x1024_S512x2048_1_1_0_0_n_n.contr.Idx) :
    (dot_S512x1024_S2048x1024_S512x2048_1_1_0_0_n_n.lhsIdx j k 1).val = (k ⟨0, by decide⟩).val :=
  dot_S512x1024_S2048x1024_S512x2048_1_1_0_0_n_n.lhsIdx_val_of_single rfl j k

theorem rhs_row (j : S512x2048.Idx) (k : dot_S512x1024_S2048x1024_S512x2048_1_1_0_0_n_n.contr.Idx) :
    (dot_S512x1024_S2048x1024_S512x2048_1_1_0_0_n_n.rhsIdx j k 0).val = (j 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl

theorem rhs_col (j : S512x2048.Idx) (k : dot_S512x1024_S2048x1024_S512x2048_1_1_0_0_n_n.contr.Idx) :
    (dot_S512x1024_S2048x1024_S512x2048_1_1_0_0_n_n.rhsIdx j k 1).val = (k ⟨0, by decide⟩).val :=
  dot_S512x1024_S2048x1024_S512x2048_1_1_0_0_n_n.rhsIdx_val_of_single rfl j k

/-- One chunk's step: entry (p, q) gains ∑ kk, x (p, kk) · w (q, kk). -/
theorem step_apply (x : Vec Ideal S512x1024 .f32) (acc : Vec Ideal S512x2048 .f32) (w : Vec Ideal S2048x1024 .bf16)
    (p : Fin 512) (q : Fin 2048) :
    k0_pay2 x acc w (ix2 p q) = acc (ix2 p q) + ∑ kk : Fin 1024, x (ix2 p kk) * w (ix2 q kk) := by
  unfold k0_pay2
  rw [shapeCast_self, shapeCast_self, addf_apply]
  refine congrArg (acc (ix2 p q) + ·) ?_
  refine (Ideal.matmul_constant_zero_apply (φ₁ := .bf16) (φ₂ := .bf16) dot_S512x1024_S2048x1024_S512x2048_1_1_0_0_n_n none
    (truncf .bf16 x bitsLt_bf16_f32) w (ix2 p q)).trans ?_
  rw [← Equiv.sum_comp (contrEquiv1 dot_S512x1024_S2048x1024_S512x2048_1_1_0_0_n_n 1024 rfl rfl).symm]
  refine Finset.sum_congr rfl fun kk _ => ?_
  have hk := contrEquiv1_symm_val dot_S512x1024_S2048x1024_S512x2048_1_1_0_0_n_n 1024 rfl rfl kk
  have el : dot_S512x1024_S2048x1024_S512x2048_1_1_0_0_n_n.lhsIdx (ix2 p q)
      ((contrEquiv1 dot_S512x1024_S2048x1024_S512x2048_1_1_0_0_n_n 1024 rfl rfl).symm kk) = ix2 p kk :=
    funext fun a => Fin.ext (by
      match a with
      | ⟨0, _⟩ => exact lhs_row _ _
      | ⟨1, _⟩ => exact (lhs_col _ _).trans hk)
  have er : dot_S512x1024_S2048x1024_S512x2048_1_1_0_0_n_n.rhsIdx (ix2 p q)
      ((contrEquiv1 dot_S512x1024_S2048x1024_S512x2048_1_1_0_0_n_n 1024 rfl rfl).symm kk) = ix2 q kk :=
    funext fun a => Fin.ext (by
      match a with
      | ⟨0, _⟩ => exact rhs_row _ _
      | ⟨1, _⟩ => exact (rhs_col _ _).trans hk)
  rw [el, er]
  rfl

/-- The last chunk's epilogue: entry (p, q) gains the bias of column q. -/
theorem bias_apply (acc : Vec Ideal S512x2048 .f32) (b : Vec Ideal S1x2048 .f32) (p : Fin 512) (q : Fin 2048) :
    k0_pay3 acc b (ix2 p q) = acc (ix2 p q) + b (ix2 (0 : Fin 1) q) := by
  unfold k0_pay3
  rw [shapeCast_self, shapeCast_self, shapeCast_self, addf_apply]
  refine congrArg (acc (ix2 p q) + ·) ?_
  exact broadcastTo_apply b broadcasts_S1x2048_S512x2048 (ix2 p q) (ix2 (0 : Fin 1) q) (fun a => by
    match a with
    | ⟨0, _⟩ => rfl
    | ⟨1, _⟩ => rfl)

end Cert.KernelIdeal.Tile

end
-- ==== Proof.Blocks.lean ====
/-
  Where the tiles the kernel body is handed sit in the arrays.

  The grid has 16 · 2 · 4 = 128 points, visited in row-major order: point t has row-block t / 8, column-block
  (t / 4) % 2 and chunk t % 4. At point t the body is handed
    * rows    (t / 8) · 512 + p   and channels (t % 4) · 1024 + kk of the input,
    * rows    ((t / 4) % 2) · 2048 + q   and channels (t % 4) · 1024 + kk of the dense weight matrix,
    * columns ((t / 4) % 2) · 2048 + q of the bias row.
  The dense weight matrix is built before the kernel runs: the zero matrix with the given weights scattered to the
  (row, column) positions (negative positions wrapped once by 4096), then a change of number format, which is the
  identity on the extended reals. The bias row is the bias vector recast to one row.
-/
import proofs.«105524_j6365141533108_2_alg».proof.Proof.Gen.KernelIdeal.Frame.Runs
import Idealize.ShloMosaic.Lib.StableHlo.Run
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The dense weight matrix: zeros, with weight `x1 n` written at row `x2 n`, column `x3 n` (a negative position
    wrapped once by 4096). -/
def dense (x1 : (⟨S1679411, .f32⟩ : BufTy).Contents (Elt Ideal)) (x2 x3 : (⟨S1679411, .i32⟩ : BufTy).Contents (Elt Ideal)) :
    (⟨S4096x4096, .f32⟩ : BufTy).Contents (Elt Ideal) :=
  Host.scatter scatter_S4096x4096_S1679411x2_S1679411_n_01_01_1 (fun _ b => b)
    (broadcastInDim S4096x4096 ![] bcast_S_S4096x4096 (constant (F := Ideal) S_ .f32 0x00000000#32))
    (concatenate S1679411x2 1 [⟨S1679411x1, (broadcastInDim S1679411x1 ![0] bcast_S1679411_S1679411x1_0 (select (cmpi .slt x2 (broadcastInDim S1679411 ![] bcast_S_S1679411 (constantI S_ 32 0#32))) (addi x2 (broadcastInDim S1679411 ![] bcast_S_S1679411 (constantI S_ 32 4096#32))) x2))⟩, ⟨S1679411x1, (broadcastInDim S1679411x1 ![0] bcast_S1679411_S1679411x1_0 (select (cmpi .slt x3 (broadcastInDim S1679411 ![] bcast_S_S1679411 (constantI S_ 32 0#32))) (addi x3 (broadcastInDim S1679411 ![] bcast_S_S1679411 (constantI S_ 32 4096#32))) x3))⟩] concatenates_S1679411x1_S1679411x1_S1679411x2_d1)
    x1

set_option maxHeartbeats 2000000 in
/-- When the kernel starts, the weight array it reads is the dense weight matrix of the three sparse arrays, after a
    change of number format. -/
theorem weights_cast (c : Dev nD) :
    (V m c main_v15 : S4096x4096.Idx → EReal)
      = truncf (F := Ideal) (s := S4096x4096) (φ := .f32) .bf16 (dense (m ((c : Thread nD τ).loc main_arg1)) (m ((c : Thread nD τ).loc main_arg2)) (m ((c : Thread nD τ).loc main_arg3))) bitsLt_bf16_f32 := by
  unfold dense
  show StableHlo.after hostOps0 (fun b => m (c, b)) (Proc.devRef .tc main_v15) = _
  after_results <;> rfl

/-- The change of number format is the identity on the extended reals: entry by entry the weight array IS the dense
    weight matrix. -/
theorem weights_at_entry (c : Dev nD) (i : S4096x4096.Idx) :
    (V m c main_v15 : S4096x4096.Idx → EReal) i
      = dense (m ((c : Thread nD τ).loc main_arg1)) (m ((c : Thread nD τ).loc main_arg2)) (m ((c : Thread nD τ).loc main_arg3)) i := by
  rw [weights_cast m c]
  generalize dense _ _ _ = W
  rfl

set_option maxHeartbeats 2000000 in
/-- When the kernel starts, the bias row it reads is the bias vector recast to shape 1 × 4096. -/
theorem bias_cast (c : Dev nD) :
    (V m c main_v16 : S1x4096.Idx → EReal)
      = shapeCast S1x4096 (m ((c : Thread nD τ).loc main_arg4)) shapeCasts_S4096_S1x4096 := by
  show StableHlo.after hostOps0 (fun b => m (c, b)) (Proc.devRef .tc main_v16) = _
  after_results <;> rfl

/-- Entry (0, q) of the bias row is the bias of channel q. -/
theorem bias_at_entry (c : Dev nD) (q : Fin 4096) :
    (V m c main_v16 : S1x4096.Idx → EReal) (ix2 (0 : Fin 1) q) = m ((c : Thread nD τ).loc main_arg4) (ix1 q) := by
  rw [bias_cast m c]
  refine shapeCast_apply _ shapeCasts_S4096_S1x4096 (ix2 (0 : Fin 1) q) (ix1 q) ?_
  rw [Shape.rowMajor_val_one, Shape.rowMajor_val_two]
  show q.val = (0 : Fin 1).val * 4096 + q.val
  show q.val = 0 * 4096 + q.val
  omega

/-- The block index of each input window at each grid point, decided over the 128 points. -/
theorem tile_index : ∀ t : Fin cfg0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = 0 ∧ win0_2.index t (1 : Fin 2) = t.val / 4 % 2 :=
  (by decide +kernel : ∀ t : Fin grid0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = 0 ∧ win0_2.index t (1 : Fin 2) = t.val / 4 % 2)

/-- The input tile at point t: entry (p, kk) is the input at row (t / 8) · 512 + p, channel (t % 4) · 1024 + kk. -/
theorem input_tile (c : Dev nD) (t : Fin cfg0.N) (p : Fin 512) (kk : Fin 1024) (r : Fin 8192) (k : Fin 4096)
    (hr : r.val = t.val / 8 * 512 + p.val) (hk : k.val = t.val % 4 * 1024 + kk.val) :
    iblk m c 0 t (ix2 p kk) = m ((c : Thread nD τ).loc main_arg0) (ix2 r k) := by
  show V m c main_arg0 (((cfg0.win 0).blk t).view.emb (ix2 p kk)) = _
  rw [V_main_arg0]
  refine congrArg (m ((c : Thread nD τ).loc main_arg0)) (funext fun a => Fin.ext ?_)
  obtain ⟨e0, e1, -⟩ := tile_index t
  match a with
  | ⟨0, _⟩ => show win0_0.index t (0 : Fin 2) * 512 + 1 * p.val = r.val; rw [e0, hr]; omega
  | ⟨1, _⟩ => show win0_0.index t (1 : Fin 2) * 1024 + 1 * kk.val = k.val; rw [e1, hk]; omega

/-- A block of the weight array at point t, whatever the array holds: entry (q, kk) of the block is the array's entry
    at row ((t / 4) % 2) · 2048 + q, channel (t % 4) · 1024 + kk. -/
theorem weight_block (f : (⟨S4096x4096, .bf16⟩ : BufTy).Contents (Elt Ideal)) (t : Fin cfg0.N) (q : Fin 2048) (kk : Fin 1024)
    (o : Fin 4096) (k : Fin 4096) (ho : o.val = t.val / 4 % 2 * 2048 + q.val) (hk : k.val = t.val % 4 * 1024 + kk.val) :
    ((cfg0.win 1).blk t).view.read (Elt Ideal) f (ix2 q kk) = f (ix2 o k) := by
  rw [View.read_apply]
  show f _ = f _
  refine congrArg f (funext fun a => Fin.ext ?_)
  obtain ⟨-, -, e0, e1, -⟩ := tile_index t
  match a with
  | ⟨0, _⟩ => show win0_1.index t (0 : Fin 2) * 2048 + 1 * q.val = o.val; rw [e0, ho]; omega
  | ⟨1, _⟩ => show win0_1.index t (1 : Fin 2) * 1024 + 1 * kk.val = k.val; rw [e1, hk]; omega

/-- The weight tile at point t: entry (q, kk) is the dense weight at row ((t / 4) % 2) · 2048 + q, channel
    (t % 4) · 1024 + kk. -/
theorem weight_tile (c : Dev nD) (t : Fin cfg0.N) (q : Fin 2048) (kk : Fin 1024) (o : Fin 4096) (k : Fin 4096)
    (ho : o.val = t.val / 4 % 2 * 2048 + q.val) (hk : k.val = t.val % 4 * 1024 + kk.val) :
    iblk m c 1 t (ix2 q kk)
      = dense (m ((c : Thread nD τ).loc main_arg1)) (m ((c : Thread nD τ).loc main_arg2)) (m ((c : Thread nD τ).loc main_arg3)) (ix2 o k) := by
  unfold iblk
  exact (weight_block (V m c main_v15) t q kk o k ho hk).trans (weights_at_entry m c (ix2 o k))

/-- The bias tile at point t: entry (0, q) is the bias of output channel ((t / 4) % 2) · 2048 + q. -/
theorem bias_tile (c : Dev nD) (t : Fin cfg0.N) (q : Fin 2048) (o : Fin 4096)
    (ho : o.val = t.val / 4 % 2 * 2048 + q.val) :
    iblk m c 2 t (ix2 (0 : Fin 1) q) = m ((c : Thread nD τ).loc main_arg4) (ix1 o) := by
  show (V m c main_v16 : S1x4096.Idx → EReal) (((cfg0.win 2).blk t).view.emb (ix2 (0 : Fin 1) q)) = _
  rw [← bias_at_entry m c o]
  refine congrArg (V m c main_v16 : S1x4096.Idx → EReal) (funext fun a => Fin.ext ?_)
  obtain ⟨-, -, -, -, e0, e1⟩ := tile_index t
  match a with
  | ⟨0, _⟩ => show win0_2.index t (0 : Fin 2) * 1 + 1 * (0 : Fin 1).val = (0 : Fin 1).val; rw [e0]; rfl
  | ⟨1, _⟩ => show win0_2.index t (1 : Fin 2) * 2048 + 1 * q.val = o.val; rw [e1, ho]; omega

end Cert.KernelIdeal.Tile

end
-- ==== Proof.KernelSide.lean ====
/-
  The kernel's result array, entry by entry.

  Output entry (r, c) lies in the tile of row-block r / 512 and column-block c / 2048, at place (r % 512, c % 2048).
  That tile is produced by the run of four consecutive grid points 4R, 4R + 1, 4R + 2, 4R + 3 with
  R = 2 · (r / 512) + c / 2048: the first starts from zero, each adds the contraction over its own chunk of 1024
  input channels, and the last adds the bias. Each point's tiles are blocks of the whole arrays, so the four
  contractions are the four chunks of ∑ k < 4096, X (r, k) · W (c, k), and the entry is the layer's function
  `lin X W B` at (r, c).
-/
import proofs.«105524_j6365141533108_2_alg».proof.Proof.Gen.KernelIdeal.Value
import proofs.«105524_j6365141533108_2_alg».proof.Proof.Spec
import proofs.«105524_j6365141533108_2_alg».proof.Proof.Payload
import proofs.«105524_j6365141533108_2_alg».proof.Proof.Blocks

noncomputable section

namespace Cert.KernelIdeal.Tile

open Cert.KernelIdeal Cert.KernelIdeal.Gen Idealize.ShloMosaic Idealize.ShloMosaic.TcCoe Idealize.SL.Sem
open Idealize.ShloMosaic.ValueIdx SparseLinear

variable (m : (ℓ : Loc nD τ sig) → Buf (Elt Ideal) ℓ)

/-- The input array, the dense weight matrix and the bias vector, as arrays of extended reals. -/
abbrev inp (c : Dev nD) : S8192x4096.Idx → EReal := m ((c : Thread nD τ).loc main_arg0)
abbrev wts (c : Dev nD) : S4096x4096.Idx → EReal :=
  dense (m ((c : Thread nD τ).loc main_arg1)) (m ((c : Thread nD τ).loc main_arg2)) (m ((c : Thread nD τ).loc main_arg3))
abbrev bia (c : Dev nD) : S4096.Idx → EReal := m ((c : Thread nD τ).loc main_arg4)

/-- At the second and third point of a run the tile gains that point's contraction. -/
theorem step_mid (c : Dev nD) (n : ℕ) (h : n < cfg0.N) (acc : Vec Ideal S512x2048 .f32) (hn : n % 4 = 1 ∨ n % 4 = 2) :
    Value.step3 m c n h acc = k0_pay2 (iblk m c 0 ⟨n, h⟩) acc (iblk m c 1 ⟨n, h⟩) := by
  unfold Value.step3
  rw [if_pos (by omega)]

/-- At the last point of a run the tile gains that point's contraction and then the bias. -/
theorem step_last (c : Dev nD) (n : ℕ) (h : n < cfg0.N) (acc : Vec Ideal S512x2048 .f32) (hn : n % 4 = 3) :
    Value.step3 m c n h acc
      = k0_pay3 (k0_pay2 (iblk m c 0 ⟨n, h⟩) acc (iblk m c 1 ⟨n, h⟩)) (iblk m c 2 ⟨n, h⟩) := by
  unfold Value.step3
  rw [if_neg (by omega), if_pos (by omega)]

/-- One point's contraction, read in the whole arrays: at a point `t` of the run that produces entry (r, c), working
    on chunk `s`, the tile's entry gains ∑ kk, X (r, s · 1024 + kk) · W (c, s · 1024 + kk). -/
theorem chunk_at (c : Dev nD) (t : Fin cfg0.N) (acc : Vec Ideal S512x2048 .f32) (r : Fin 8192) (o : Fin 4096) (s : Fin 4)
    (ht : t.val / 4 = 2 * (r.val / 512) + o.val / 2048) (hs : t.val % 4 = s.val)
    (p : Fin 512) (q : Fin 2048) (hp : p.val = r.val % 512) (hq : q.val = o.val % 2048) :
    k0_pay2 (iblk m c 0 t) acc (iblk m c 1 t) (ix2 p q)
      = acc (ix2 p q) + ∑ kk : Fin 1024, inp m c (ix2 r (chan s kk)) * wts m c (ix2 o (chan s kk)) := by
  have hr := r.isLt
  have ho := o.isLt
  refine (step_apply (iblk m c 0 t) acc (iblk m c 1 t) p q).trans ?_
  refine congrArg (acc (ix2 p q) + ·) (Finset.sum_congr rfl fun kk _ => ?_)
  rw [input_tile m c t p kk r (chan s kk) (by omega) (by rw [chan_val]; omega),
    weight_tile m c t q kk o (chan s kk) (by omega) (by rw [chan_val]; omega)]

/-- The fold of a run, at an entry of its tile: the layer's function at the array entry the tile's entry is. -/
theorem run_fold (c : Dev nD) (r : Fin 8192) (o : Fin 4096) (b : ℕ) (h : b + 3 < cfg0.N)
    (hb : b = 4 * (2 * (r.val / 512) + o.val / 2048))
    (p : Fin 512) (q : Fin 2048) (hp : p.val = r.val % 512) (hq : q.val = o.val % 2048) :
    Pipeline.accAt (Value.reset3 m c) (Value.step3 m c) b 3 h (ix2 p q)
      = lin (inp m c) (wts m c) (bia m c) (ix2 r o) := by
  have hr := r.isLt
  have ho := o.isLt
  rw [Pipeline.accAt_succ, Pipeline.accAt_succ, Pipeline.accAt_succ, Pipeline.accAt_zero]
  rw [step_last m c _ _ _ (by omega), step_mid m c _ _ _ (by omega), step_mid m c _ _ _ (by omega)]
  unfold Value.reset3
  refine (bias_apply _ _ p q).trans ?_
  rw [chunk_at m c ⟨b + (2 + 1), _⟩ _ r o 3 (by show (b + (2 + 1)) / 4 = _; omega) (by show (b + (2 + 1)) % 4 = 3; omega) p q hp hq,
    chunk_at m c ⟨b + (1 + 1), _⟩ _ r o 2 (by show (b + (1 + 1)) / 4 = _; omega) (by show (b + (1 + 1)) % 4 = 2; omega) p q hp hq,
    chunk_at m c ⟨b + (0 + 1), _⟩ _ r o 1 (by show (b + (0 + 1)) / 4 = _; omega) (by show (b + (0 + 1)) % 4 = 1; omega) p q hp hq,
    chunk_at m c ⟨b, _⟩ _ r o 0 (by show b / 4 = _; omega) (by show b % 4 = 0; omega) p q hp hq,
    start_apply,
    bias_tile m c ⟨b + (2 + 1), _⟩ q o (by show o.val = (b + (2 + 1)) / 4 % 2 * 2048 + q.val; omega)]
  exact lin_chunks (inp m c) (wts m c) (bia m c) r o

/-- The kernel's result array is the layer's function of the input, the dense weight matrix and the bias. -/
theorem result_eq (c : Dev nD) :
    Value.G3 (F := Ideal) m c
      = lin (inp m c) (wts m c) (bia m c) := by
  funext i
  obtain ⟨r, o, rfl⟩ : ∃ (r : Fin 8192) (o : Fin 4096), i = ix2 r o := ⟨i 0, i 1, eq_ix2 i⟩
  have hr := r.isLt
  have ho := o.isLt
  have hN : cfg0.N = 128 := N_0
  have hrun : Value.run3Of (ix2 r o) = 2 * (r.val / 512) + o.val / 2048 := by
    show 2 * (r.val / 512 - 0) + 1 * (o.val / 2048 - 0) = _
    omega
  have hloc : Value.loc3Of (ix2 r o) = ix2 (⟨r.val % 512, Nat.mod_lt _ (by decide)⟩ : Fin 512) (⟨o.val % 2048, Nat.mod_lt _ (by decide)⟩ : Fin 2048) :=
    funext fun a => by match a with | ⟨0, _⟩ => rfl | ⟨1, _⟩ => rfl
  unfold Value.G3
  rw [dif_pos (by rw [hrun, hN]; omega), hloc]
  exact run_fold m c r o _ _ (by rw [hrun]) _ _ rfl rfl

end Cert.KernelIdeal.Tile

end
-- ==== Proof.RefSide.lean ====
/-
  The reference, entry by entry. It builds the same dense weight matrix W, transposes it, multiplies the input by
  the transpose and adds the bias broadcast over the rows:

      reference (r, c) = (∑ k < 4096, X (r, k) · Wᵀ (k, c)) + B c = (∑ k, X (r, k) · W (c, k)) + B c,

  which is the layer's function `lin X W B` with nothing to rearrange.
-/
import proofs.«105524_j6365141533108_2_alg».proof.Proof.Gen.ReferenceIdeal.Read
import proofs.«105524_j6365141533108_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The left operand of the product at output entry (r, c), contraction position k: the input at (r, k). -/
theorem lhs_entry (r : Fin 8192) (c : Fin 4096) (k : Fin 4096) : lidx_main_v16 (ix2 r c) k = ix2 r k :=
  funext fun a => Fin.ext (by match a with | ⟨0, _⟩ => rfl | ⟨1, _⟩ => rfl)

/-- The right operand is the transposed matrix at (k, c), that is the dense weight at (c, k). -/
theorem rhs_entry (r : Fin 8192) (c : Fin 4096) (k : Fin 4096) : idx_main_v15 (ridx_main_v16 (ix2 r c) k) = ix2 c k :=
  funext fun a => Fin.ext (by match a with | ⟨0, _⟩ => rfl | ⟨1, _⟩ => rfl)

/-- The broadcast bias at (r, c) is the bias of channel c. -/
theorem bias_entry (r : Fin 8192) (c : Fin 4096) : idx_main_v17 (idx_main_v18 (ix2 r c)) = ix1 c :=
  funext fun a => Fin.ext (by match a with | ⟨0, _⟩ => rfl)

/-- The reference's result is the layer's function of the input, the dense weight matrix and the bias. -/
theorem result_eq (x0 : (⟨S8192x4096, .f32⟩ : BufTy).Contents (Elt Ideal)) (x1 : (⟨S1679411, .f32⟩ : BufTy).Contents (Elt Ideal))
    (x2 x3 : (⟨S1679411, .i32⟩ : BufTy).Contents (Elt Ideal)) (x4 : (⟨S4096, .f32⟩ : BufTy).Contents (Elt Ideal)) :
    val_main_v19 (F := Ideal) x0 x1 x2 x3 x4 = SparseLinear.lin x0 (val_main_v14 (F := Ideal) x1 x2 x3) x4 := by
  funext i
  obtain ⟨r, c, rfl⟩ : ∃ (r : Fin 8192) (c : Fin 4096), i = ix2 r c := ⟨i 0, i 1, eq_ix2 i⟩
  rw [val_main_v19_apply, val_main_v16_apply, val_main_v18_apply, val_main_v17_apply, bias_entry]
  simp only [val_main_v15_apply, lhs_entry, rhs_entry]
  rfl

end Cert.ReferenceIdeal.RefValue

end
-- ==== Proof.lean ====
/-
  The sparse linear layer y = x · Wᵀ + b, with W rebuilt densely from its (row, column, weight) triples.

  The kernel tiles the product: the output is cut into 512 × 2048 tiles, the 4096 input channels into four chunks of
  1024, and each output tile is accumulated over its four chunks from a zero start, the bias added after the last
  chunk. The reference multiplies the whole input by the transposed dense matrix and adds the bias. Both build
  the dense matrix W from the sparse triples by the same operations, so W is the same array on both sides, and on
  the extended reals both results are

      (r, c) ↦ (∑ k < 4096, X (r, k) · W (c, k)) + B c.

  The kernel's side regroups the sum over k into its four chunks (only commutativity and associativity of
  addition: no finiteness of the entries is used); the reference's side is that sum as it stands. The changes of
  number format on the kernel's side are the identity on the extended reals, and the idealization rewrote
  nothing, so the kernel and its idealization are the same text.
-/
import proofs.«105524_j6365141533108_2_alg».proof.Defs
import proofs.«105524_j6365141533108_2_alg».proof.Proof.Gen.Kernel.Frame
import proofs.«105524_j6365141533108_2_alg».proof.Proof.Gen.KernelIdeal.Value
import proofs.«105524_j6365141533108_2_alg».proof.Proof.Gen.Pre_finite_inputs
import proofs.«105524_j6365141533108_2_alg».proof.Proof.Gen.ReferenceIdeal.Run
import proofs.«105524_j6365141533108_2_alg».proof.Proof.Gen.ReferenceIdeal.Read
import proofs.«105524_j6365141533108_2_alg».proof.Proof.KernelSide
import proofs.«105524_j6365141533108_2_alg».proof.Proof.RefSide
import Idealize.ShloMosaic.Adequacy
import Idealize.ShloMosaic.Init

noncomputable section

namespace Cert.Proof

open Idealize.ShloMosaic Idealize.ShloMosaic.TcCoe Idealize.SL.Sem

/-- The dense weight matrix is built by the same operations in both programs: the two spellings are one array. -/
theorem dense_eq (x1 : (⟨Cert.ReferenceIdeal.S1679411, .f32⟩ : BufTy).Contents (Elt Ideal))
    (x2 x3 : (⟨Cert.ReferenceIdeal.S1679411, .i32⟩ : BufTy).Contents (Elt Ideal)) :
    Cert.ReferenceIdeal.Read.val_main_v14 (F := Ideal) x1 x2 x3 = Cert.KernelIdeal.Tile.dense x1 x2 x3 := rfl

/-- The idealized kernel runs and leaves its arguments as they were: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The reference runs and leaves its arguments as they were: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the five arguments both programs end with the layer's function of the input, the
    dense weight matrix and the bias in their result arrays. -/
theorem algebraic_KernelIdeal_ReferenceIdeal : algebraic_KernelIdeal_ReferenceIdeal := by
  intro m ρ m' ρ' _ hagree
  refine ⟨fun c => SparseLinear.lin (m ((c : Thread Cert.KernelIdeal.nD Cert.KernelIdeal.τ).loc Cert.KernelIdeal.main_arg0))
      (Cert.KernelIdeal.Tile.dense (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3)))
      (m ((c : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Tile.result_eq m c), (h c).2⟩)
      (Cert.KernelIdeal.Value.run (F := Ideal) m ρ)
  · refine (θ_run Cert.ReferenceIdeal.defs _ _).mono (fun _ h c => ⟨?_, (h c).2⟩)
      (Cert.ReferenceIdeal.Value.run (F := Ideal) m' ρ')
    obtain ⟨h0, h1, h2, h3, h4⟩ := hagree c
    rw [(h c).1, Cert.ReferenceIdeal.Read.val_main_v19_eq, Cert.ReferenceIdeal.RefValue.result_eq, dense_eq, h0, h1, h2, h3, h4]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
